-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : IVec S1600000 32) (main_arg2 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S1600000 32 := broadcastInDim S1600000 ![] bcast_S_S1600000 main_c_0
  let main_v5 : IVec S1600000 1 := cmpi .sge main_arg2 main_v4
  let main_c_1 : IVec S_ 1 := constantI S_ 1 1#1
  let main_v6 : IVec S_ 1 := (fun x v => Host.reduce IntOp.andi x v reducesTo_S1600000_S_d0 h_S_) main_v5 main_c_1
  let main_v7 : IVec S_ 1 := andi main_v3 main_v6
  main_v7
-- ==== Kernel.lean ====
abbrev S100000x128 : Shape := ⟨2, ![100000, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 31
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S_, .f32⟩
  | .hbm, ⟨4, _⟩ => ⟨S100000x128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S100000x1, .f32⟩
  | .hbm, ⟨30, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_c_0 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_c_1 : Ref sig .tc := ⟨.hbm, 14, rfl⟩
abbrev main_call0_v8 : Ref sig .tc := ⟨.hbm, 15, rfl⟩
abbrev main_call0_v9 : Ref sig .tc := ⟨.hbm, 16, rfl⟩
abbrev main_call0_c_2 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst_3 : Ref sig .tc := ⟨.hbm, 23, rfl⟩
abbrev main_call0_v15 : Ref sig .tc := ⟨.hbm, 24, rfl⟩
abbrev main_call0_cst_4 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v19) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x128, .f32⟩
  | .hbm, ⟨12, _⟩ => ⟨S_, .f32⟩
  | .hbm, ⟨13, _⟩ => ⟨S100000x128, .f32⟩
  | .hbm, ⟨14, _⟩ => ⟨S1600000x1, .i32⟩
  | .hbm, ⟨15, _⟩ => ⟨S100000x128, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.SegmentIds.lean ====
/-
  Segment ids that are never negative.

  The precondition asks two things of the launch memory: every entry of the feature matrix is a finite
  number, and every entry of the destination-id vector is at least zero (compared as signed 32-bit words).
  This module reads the second conjunct back, entry by entry, and draws its one consequence:

    the index normalisation  d ↦ (if d < 0 then d + 100000 else d),

  which array indexing applies before an accumulating scatter, is the identity on such a vector. A scatter
  through normalised ids and a scatter through the ids as given then receive the same index array.
-/
import proofs.«133157_j78675210928250_2_alg».proof.Pre_finite_inputs
import proofs.«133157_j78675210928250_2_alg».proof.Proof.Gen.Pre_finite_inputs
import Idealize.ShloMosaic.Lib.ReduceAll
import Idealize.ShloMosaic.Lib.ValueIdx

noncomputable section

namespace Cert.SegmentIds

open Idealize.ShloMosaic Cert.Pre_finite_inputs

/-- The scalar shape has one index. -/
instance : Subsingleton S_.Idx := ⟨fun a b => funext fun d => d.elim0⟩

/-- A word that is at least zero (signed) is not below zero (signed). -/
theorem not_slt_zero_of_sge_zero (x : BitVec 32) (h : IntOp.cmpi .sge x 0#32 = 1#1) :
    IntOp.cmpi .slt x 0#32 = 0#1 := by
  have h0 : BitVec.ofBool ((0#32 : BitVec 32).sle x) = 1#1 := h
  have h' : (0#32 : BitVec 32).sle x = true := by
    cases hb : (0#32 : BitVec 32).sle x
    · rw [hb] at h0; exact absurd h0 (by decide)
    · rfl
  have h1 : (0#32 : BitVec 32).toInt ≤ x.toInt := BitVec.sle_iff_toInt_le.1 h'
  have h2 : x.slt 0#32 = false := by
    cases hb : x.slt 0#32
    · rfl
    · have h3 : x.toInt < (0#32 : BitVec 32).toInt := BitVec.slt_iff_toInt_lt.1 hb
      omega
  show BitVec.ofBool (x.slt 0#32) = 0#1
  rw [h2]; rfl

/-- THE PRECONDITION'S SECOND CONJUNCT, entry by entry: each destination id is at least zero. -/
theorem ids_nonneg {F : FTy → Type} [FloatOps F] (ef : FVec F S100000x128 .f32) (src dst : IVec S1600000 32)
    (h : Cert.Pre_finite_inputs.fn (F := F) ef src dst = fun _ => 1#1) (e : S1600000.Idx) :
    IntOp.cmpi .sge (dst e) 0#32 = 1#1 := by
  have h0 := congrFun h ValueIdx.ix0
  dsimp only [Cert.Pre_finite_inputs.fn] at h0
  have h1 := (IntOp.andi_eq_one.1 h0).2
  exact Host.reduce_andi_all _ _ _ _ _ h1 e

/-- On ids that are never negative the index normalisation changes nothing. -/
theorem normalise_eq_self (dst : IVec S1600000 32) (hd : ∀ e, IntOp.cmpi .sge (dst e) 0#32 = 1#1)
    (hb : S_.BroadcastsInDim S1600000 (![] : Fin 0 → Fin S1600000.rank)) :
    select (cmpi .slt dst (broadcastInDim S1600000 ![] hb (constantI S_ 32 0#32)))
      (addi dst (broadcastInDim S1600000 ![] hb (constantI S_ 32 100000#32))) dst = dst := by
  funext e
  rw [ValueIdx.select_apply]
  have hc : cmpi .slt dst (broadcastInDim S1600000 ![] hb (constantI S_ 32 0#32)) e = 0#1 :=
    not_slt_zero_of_sge_zero (dst e) (hd e)
  rw [hc, ValueIdx.select_zero]

end Cert.SegmentIds

end
-- ==== Proof.MixSpec.lean ====
/-
  The pointwise rule of the layer.

  A node's new feature is the even mix of its old feature `e` with the mean of the messages that reached it:
  with `s` the sum of those messages and `k` their number,

      mixAt e s k  =  ½ · e  +  ½ · ( s / max(k, 1) ),

  the divisor clamped at one so that a node no message reaches keeps half its own feature. The two halves are
  the same binary word (0x3F000000) and the clamp is the word of 1.0 (0x3F800000); the rule is stated once,
  for any float interpretation, and both programs are read against it.
-/
import Idealize.ShloMosaic.PureOps

noncomputable section

namespace Cert.MeanMix

open Idealize.ShloMosaic

variable {F : FTy → Type} [FloatOps F]

/-- ½ · e + ½ · (s / max(k, 1)). -/
def mixAt (e s k : F .f32) : F .f32 :=
  FloatOps.addf (FloatOps.mulf (Scalar.ofBits .f32 0x3F000000#32) e)
    (FloatOps.mulf (Scalar.ofBits .f32 0x3F000000#32)
      (FloatOps.divf s (FloatOps.maximumf k (Scalar.ofBits .f32 0x3F800000#32))))

end Cert.MeanMix

end
-- ==== Proof.KernelArray.lean ====
/-
  The kernel's output array as one function of the arrays it reads.

  The launch walks twenty grid points; point `t` reads rows 5000·t … 5000·t + 4999 of three arrays — the
  feature matrix [100000, 128], the scattered message sums [100000, 128] and the message counts laid out as a
  column [100000, 1] — and writes the same rows of the output. Inside a block the body applies the layer's
  pointwise rule to the three loads, the count column spread across the 128 lanes. Hence block `t` of the
  output is block `t` of ONE function of the three arrays,

      W a0 a1 a2 (r, c) = mixAt (a0 (r, c)) (a1 (r, c)) (a2 (r, 0)),

  and since the twenty blocks tile the 100000 rows (row `r` lies in block `r / 5000`), the output array
  ends equal to `W` of the arrays as the launch finds them.
-/
import proofs.«133157_j78675210928250_2_alg».proof.Proof.Gen.KernelIdeal.Value
import proofs.«133157_j78675210928250_2_alg».proof.Proof.MixSpec
import Idealize.ShloMosaic.Lib.Pipeline.Value

noncomputable section

namespace Cert.MeanMix.Kernel

open Cert.KernelIdeal Cert.KernelIdeal.Gen Idealize.ShloMosaic Idealize.ShloMosaic.TcCoe Idealize.SL.Sem
open Idealize.ShloMosaic.Pipeline (Dat)
open Cert.MeanMix

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The entry of the count column that entry `i` of the output reads: its own row, lane 0. -/
abbrev colOf (i : S100000x128.Idx) : S100000x1.Idx := fun a => match a with
  | ⟨0, _⟩ => ⟨(i 0).val, (i 0).isLt⟩
  | ⟨1, _⟩ => ⟨0, Nat.one_pos⟩

/-- The output as one function of the three arrays the launch reads. -/
abbrev W (a0 a1 : S100000x128.Idx → Elt F .f32) (a2 : S100000x1.Idx → Elt F .f32) : S100000x128.Idx → Elt F .f32 :=
  fun i => mixAt (a0 i) (a1 i) (a2 (colOf i))

/-- The four index maps over the twenty points: every window sits on the output's row block, in lane block 0,
    and the row block is below 20. -/
theorem index_maps : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = 0
    ∧ win0_3.index t (1 : Fin 2) = 0 ∧ win0_3.index t (0 : Fin 2) ≤ 19 :=
  (by decide +kernel : ∀ t : Fin grid0.N, _)

/-- Every one of the twenty row blocks is some point's. -/
theorem index_onto : ∀ q : Fin 20, ∃ t : Fin cfg0.N, win0_3.index t = ![q.val, 0] :=
  (by decide +kernel : ∀ q : Fin 20, ∃ t : Fin grid0.N, win0_3.index t = ![q.val, 0])

/-- WHAT POINT `t` WRITES BACK is block `t` of `W` of the arrays as the launch finds them. -/
theorem flushed_eq (c : Dev nD) (t : Fin cfg0.N) :
    (dats m 0 c).flushed 3 t
      = ((cfg0.win 3).blk t).view.read (Elt F) (W (V m c main_arg0) (V m c main_call0_v14) (V m c main_call0_v19)) := by
  rw [Cert.KernelIdeal.Value.flushed3]
  unfold out0_3
  simp only [View.ld_unit_zero (S := S5000x128) zero_offsets, View.ld_unit_zero (S := S5000x1) zero_offsets]
  obtain ⟨e00, e01, e10, e11, e20, e21, e31, -⟩ := index_maps t
  funext j
  show View.canon [⟨r0_1, k0_pay1 (iblk m c 2 t) (iblk m c 1 t) (iblk m c 0 t)⟩] j
    = W (V m c main_arg0) (V m c main_call0_v14) (V m c main_call0_v19) (((cfg0.win 3).blk t).view.emb j)
  refine (Cert.KernelIdeal.Value.canon3_eq (iblk m c 0 t) (iblk m c 1 t) (iblk m c 2 t) j).trans ?_
  show mixAt (V m c main_arg0 (((cfg0.win 0).blk t).view.emb (Cert.KernelIdeal.Value.ix3_0 j)))
      (V m c main_call0_v14 (((cfg0.win 1).blk t).view.emb (Cert.KernelIdeal.Value.ix3_1 j)))
      (V m c main_call0_v19 (((cfg0.win 2).blk t).view.emb (Cert.KernelIdeal.Value.ix3_2 j)))
    = mixAt (V m c main_arg0 (((cfg0.win 3).blk t).view.emb j))
      (V m c main_call0_v14 (((cfg0.win 3).blk t).view.emb j))
      (V m c main_call0_v19 (colOf (((cfg0.win 3).blk t).view.emb j)))
  have hj0 : (j 0).val < 5000 := (j 0).isLt
  have hj1 : (j 1).val < 128 := (j 1).isLt
  have h0 : ((cfg0.win 0).blk t).view.emb (Cert.KernelIdeal.Value.ix3_0 j) = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb (Cert.KernelIdeal.Value.ix3_1 j) = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb (Cert.KernelIdeal.Value.ix3_2 j) = colOf (((cfg0.win 3).blk t).view.emb j) := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  rw [h0, h1, h2]

/-- An entry is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- The twenty blocks tile the array: row `r` lies in the block of point `r / 5000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the run is `W` of the three arrays as the launch finds them. -/
theorem final (c : Dev nD) :
    (dats m 0 c).arrAt 3 cfg0.N = W (V m c main_arg0) (V m c main_call0_v14) (V m c main_call0_v19) :=
  (dats m 0 c).arrAt_eq_of_cover 3 _ (fun t _ => flushed_eq m c t) covered

end Cert.MeanMix.Kernel

end
-- ==== Proof.LibKeepdims.lean ====
/-
  A vector seen as a column, and as a row.

  A vector y of length n can be laid out as a column [n, 1] or as a row [1, n] in two ways: by reading its n entries in
  row-major order under the new shape (a reshape), or by declaring which axis of the new shape the vector's axis goes to
  and repeating it along the other (a broadcast along a named axis; here the other axis has length one, so nothing is
  repeated). Both give the array whose entry (p, 0), resp. (0, q), is y(p), resp. y(q):

    * in a column [n, 1] the entry (p, u) has u = 0 and row-major position p * 1 + 0 = p, which is the position of y(p);
      the broadcast sends the vector's axis to axis 0 and so reads y at the coordinate p;
    * in a row [1, n] the entry (r, q) has r = 0 and row-major position 0 * n + q = q, the position of y(q); the broadcast
      sends the vector's axis to axis 1 and so reads y at the coordinate q.

  When n = 1 the broadcast reads coordinate 0 whatever the index, and the only coordinate below 1 is 0, so the two agree
  in that case as well. The entries may be of any type.
-/
import Idealize.ShloMosaic.Lib.ValueIdx
import Idealize.ShloMosaic.Lib.Pipeline.Value

noncomputable section

namespace Cert.Lib.Keepdims

open Idealize.ShloMosaic Idealize.ShloMosaic.ValueIdx

variable {α : Type}

/-- A vector [n] reshaped to a column [n, 1] reads, at (p, u), the vector at p. -/
theorem shapeCast_column_apply {n : ℕ} (y : (⟨1, ![n]⟩ : Shape).Idx → α) (h : (⟨1, ![n]⟩ : Shape).ShapeCasts ⟨2, ![n, 1]⟩)
    (j : (⟨2, ![n, 1]⟩ : Shape).Idx) : shapeCast (⟨2, ![n, 1]⟩ : Shape) y h j = y (ix1 (j 0)) :=
  shapeCast_apply y h j (ix1 (j 0)) (by
    have hu : (j 1).val = 0 := by have := idx2_lt1 j; omega
    rw [Shape.rowMajor_val_one, Shape.rowMajor_val_two]
    show (j 0).val = (j 0).val * 1 + (j 1).val
    rw [hu, Nat.mul_one, Nat.add_zero])

/-- A vector [n] broadcast along axis 0 of a column [n, 1] reads, at (p, u), the vector at p. -/
theorem broadcastInDim_column_apply {n : ℕ} (y : (⟨1, ![n]⟩ : Shape).Idx → α)
    (hb : (⟨1, ![n]⟩ : Shape).BroadcastsInDim (⟨2, ![n, 1]⟩ : Shape) (![0] : Fin 1 → Fin (⟨2, ![n, 1]⟩ : Shape).rank))
    (j : (⟨2, ![n, 1]⟩ : Shape).Idx) : broadcastInDim (⟨2, ![n, 1]⟩ : Shape) ![0] hb y j = y (ix1 (j 0)) :=
  broadcastInDim_apply _ hb y j (ix1 (j 0)) (fun a => match a with
    | ⟨0, _⟩ => by
      show (j 0).val = if n = 1 then 0 else (j 0).val
      split
      · have := idx2_lt0 j; omega
      · rfl)

/-- The column made from a vector by a reshape is the column made by a broadcast along axis 0. -/
theorem column_eq {n : ℕ} (y : (⟨1, ![n]⟩ : Shape).Idx → α) (h : (⟨1, ![n]⟩ : Shape).ShapeCasts ⟨2, ![n, 1]⟩)
    (hb : (⟨1, ![n]⟩ : Shape).BroadcastsInDim (⟨2, ![n, 1]⟩ : Shape) (![0] : Fin 1 → Fin (⟨2, ![n, 1]⟩ : Shape).rank)) :
    shapeCast (⟨2, ![n, 1]⟩ : Shape) y h = broadcastInDim (⟨2, ![n, 1]⟩ : Shape) ![0] hb y :=
  funext fun j => (shapeCast_column_apply y h j).trans (broadcastInDim_column_apply y hb j).symm

/-- A vector [n] reshaped to a row [1, n] reads, at (r, q), the vector at q. -/
theorem shapeCast_row_apply {n : ℕ} (y : (⟨1, ![n]⟩ : Shape).Idx → α) (h : (⟨1, ![n]⟩ : Shape).ShapeCasts ⟨2, ![1, n]⟩)
    (j : (⟨2, ![1, n]⟩ : Shape).Idx) : shapeCast (⟨2, ![1, n]⟩ : Shape) y h j = y (ix1 (j 1)) :=
  shapeCast_apply y h j (ix1 (j 1)) (by
    have hu : (j 0).val = 0 := by have := idx2_lt0 j; omega
    rw [Shape.rowMajor_val_one, Shape.rowMajor_val_two]
    show (j 1).val = (j 0).val * n + (j 1).val
    rw [hu, Nat.zero_mul, Nat.zero_add])

/-- A vector [n] broadcast along axis 1 of a row [1, n] reads, at (r, q), the vector at q. -/
theorem broadcastInDim_row_apply {n : ℕ} (y : (⟨1, ![n]⟩ : Shape).Idx → α)
    (hb : (⟨1, ![n]⟩ : Shape).BroadcastsInDim (⟨2, ![1, n]⟩ : Shape) (![1] : Fin 1 → Fin (⟨2, ![1, n]⟩ : Shape).rank))
    (j : (⟨2, ![1, n]⟩ : Shape).Idx) : broadcastInDim (⟨2, ![1, n]⟩ : Shape) ![1] hb y j = y (ix1 (j 1)) :=
  broadcastInDim_apply _ hb y j (ix1 (j 1)) (fun a => match a with
    | ⟨0, _⟩ => by
      show (j 1).val = if n = 1 then 0 else (j 1).val
      split
      · have := idx2_lt1 j; omega
      · rfl)

/-- The row made from a vector by a reshape is the row made by a broadcast along axis 1. -/
theorem row_eq {n : ℕ} (y : (⟨1, ![n]⟩ : Shape).Idx → α) (h : (⟨1, ![n]⟩ : Shape).ShapeCasts ⟨2, ![1, n]⟩)
    (hb : (⟨1, ![n]⟩ : Shape).BroadcastsInDim (⟨2, ![1, n]⟩ : Shape) (![1] : Fin 1 → Fin (⟨2, ![1, n]⟩ : Shape).rank)) :
    shapeCast (⟨2, ![1, n]⟩ : Shape) y h = broadcastInDim (⟨2, ![1, n]⟩ : Shape) ![1] hb y :=
  funext fun j => (shapeCast_row_apply y h j).trans (broadcastInDim_row_apply y hb j).symm

end Cert.Lib.Keepdims

end
-- ==== Proof.LibAfter.lean ====
/-
  General facts about `StableHlo.after` over a line in single-assignment form: a line of host operations each of
  which writes exactly one reference, the written references pairwise distinct. For such a line the contents of a
  written reference after the whole line are the writing operation's result over the contents after the operations
  before it, and a reference written before position `k` (or never written) holds after the whole line what it holds
  after the first `k` operations. Hence the per-operation read equations `read_unary`, `read_binary`, … : the
  final contents of a result are the operation's function of the FINAL contents of its operands.
-/
import Idealize.ShloMosaic.Lib.StableHlo.Run

namespace Cert.LibAfter

open Idealize.ShloMosaic Idealize.ShloMosaic.StableHlo

variable {τ : Topo} {sig : RefSig} {Val : EltTy → Type}

/-- Operation by operation, the line writes exactly the references of the list. -/
abbrev Writes (ops : List (HloOp τ sig Val)) (wr : List (Ref sig .tc)) : Prop :=
  List.Forall₂ (fun op r => op.writes = {Proc.devRef (τ := τ) .tc r}) ops wr

/-- The fold over two lines in a row is the fold over the second from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference the line never writes keeps its contents. -/
theorem after_of_not_written {ops : List (HloOp τ sig Val)} {wr : List (Ref sig .tc)} (hw : Writes ops wr)
    {r : Ref sig .tc} (hr : r ∉ wr) (V : Valuation τ sig Val) :
    after ops V (Proc.devRef .tc r) = V (Proc.devRef .tc r) := by
  induction hw generalizing V with
  | nil => rfl
  | @cons op r' ops wr hop _ ih =>
    rw [after_cons, ih (fun h => hr (List.mem_cons_of_mem _ h)),
      op.result_of_not_mem V (by
        rw [hop, Finset.mem_singleton]
        exact devRef_ne_of_ne (fun e => hr (e ▸ List.mem_cons_self)))]

theorem writes_drop {ops : List (HloOp τ sig Val)} {wr : List (Ref sig .tc)} (hw : Writes ops wr) (k : Nat) :
    Writes (ops.drop k) (wr.drop k) := List.forall₂_drop k hw

theorem writes_append {o₁ o₂ : List (HloOp τ sig Val)} {w₁ w₂ : List (Ref sig .tc)} (h₁ : Writes o₁ w₁) (h₂ : Writes o₂ w₂) :
    Writes (o₁ ++ o₂) (w₁ ++ w₂) := List.rel_append h₁ h₂

/-- In a list without repetition, the entry at a position is not among the entries from a later position on. -/
theorem not_mem_drop_of_lt {α : Type} {l : List α} (hnd : l.Nodup) {i k : Nat} (hik : i < k) {a : α}
    (ha : l[i]? = some a) : a ∉ l.drop k := by
  intro hmem
  obtain ⟨j, hj⟩ := List.mem_iff_getElem?.mp hmem
  rw [List.getElem?_drop] at hj
  have hlt : k + j < l.length := (List.getElem?_eq_some_iff.mp hj).1
  exact (List.nodup_iff_getElem?_ne_getElem?.mp hnd i (k + j) (by omega) hlt) (ha.trans hj.symm)

theorem not_mem_drop_of_not_mem {α : Type} {l : List α} {a : α} (ha : a ∉ l) (k : Nat) : a ∉ l.drop k :=
  fun h => ha (List.mem_of_mem_drop h)

/-- A reference not written from position `k` on holds after the line what it holds after the first `k` operations. -/
theorem after_keep {ops : List (HloOp τ sig Val)} {wr : List (Ref sig .tc)} (hw : Writes ops wr) (k : Nat)
    {a : Ref sig .tc} (ha : a ∉ wr.drop k) (V : Valuation τ sig Val) :
    after ops V (Proc.devRef .tc a) = after (ops.take k) V (Proc.devRef .tc a) := by
  conv_lhs => rw [← List.take_append_drop k ops]
  rw [after_append, after_of_not_written (writes_drop hw k) ha]

/-- The reference written at position `k` holds after the line the result of that operation over the contents after
    the first `k` operations. -/
theorem after_at {ops : List (HloOp τ sig Val)} {wr : List (Ref sig .tc)} (hw : Writes ops wr) (hnd : wr.Nodup) (k : Nat)
    {op : HloOp τ sig Val} {y : Ref sig .tc} (hop : ops[k]? = some op) (hy : wr[k]? = some y) (V : Valuation τ sig Val) :
    after ops V (Proc.devRef .tc y) = op.result (after (ops.take k) V) (Proc.devRef .tc y) := by
  obtain ⟨hk, hopk⟩ := List.getElem?_eq_some_iff.mp hop
  have e : ops = ops.take k ++ op :: ops.drop (k + 1) := by
    rw [← hopk, ← List.drop_eq_getElem_cons hk, List.take_append_drop]
  conv_lhs => rw [e]
  rw [after_append, after_cons,
    after_of_not_written (writes_drop hw (k + 1)) (not_mem_drop_of_lt hnd (Nat.lt_succ_self k) hy)]

section Reads

variable {ops : List (HloOp τ sig Val)} {wr : List (Ref sig .tc)} (hw : Writes ops wr) (hnd : wr.Nodup) (k : Nat)
include hw hnd

/-- A constant's buffer holds the constant. -/
theorem read_nullary {y : Ref sig .tc} {v : y.ty.Contents Val} {hy}
    (hop : ops[k]? = some (nullary (τ := τ) y v hy)) (hyk : wr[k]? = some y) (V : Valuation τ sig Val) :
    after ops V (Proc.devRef .tc y) = v := by
  rw [after_at hw hnd k hop hyk, nullary_result]

/-- A one-operand operation's result holds its function of the operand's final contents. -/
theorem read_unary {x y : Ref sig .tc} {f : x.ty.Contents Val → y.ty.Contents Val} {hx hy}
    (hop : ops[k]? = some (unary (τ := τ) x y f hx hy)) (hyk : wr[k]? = some y) (hxk : x ∉ wr.drop k)
    (V : Valuation τ sig Val) :
    after ops V (Proc.devRef .tc y) = f (after ops V (Proc.devRef .tc x)) := by
  rw [after_at hw hnd k hop hyk, unary_result, after_keep hw k hxk]

/-- A two-operand operation's result holds its function of the operands' final contents. -/
theorem read_binary {a b y : Ref sig .tc} {f : a.ty.Contents Val → b.ty.Contents Val → y.ty.Contents Val} {ha hb hy}
    (hop : ops[k]? = some (binary (τ := τ) a b y f ha hb hy)) (hyk : wr[k]? = some y)
    (hak : a ∉ wr.drop k) (hbk : b ∉ wr.drop k) (V : Valuation τ sig Val) :
    after ops V (Proc.devRef .tc y) = f (after ops V (Proc.devRef .tc a)) (after ops V (Proc.devRef .tc b)) := by
  rw [after_at hw hnd k hop hyk, binary_result, after_keep hw k hak, after_keep hw k hbk]

/-- A three-operand operation's result holds its function of the operands' final contents. -/
theorem read_ternary {c a b y : Ref sig .tc}
    {f : c.ty.Contents Val → a.ty.Contents Val → b.ty.Contents Val → y.ty.Contents Val} {hc ha hb hy}
    (hop : ops[k]? = some (ternary (τ := τ) c a b y f hc ha hb hy)) (hyk : wr[k]? = some y)
    (hck : c ∉ wr.drop k) (hak : a ∉ wr.drop k) (hbk : b ∉ wr.drop k) (V : Valuation τ sig Val) :
    after ops V (Proc.devRef .tc y)
      = f (after ops V (Proc.devRef .tc c)) (after ops V (Proc.devRef .tc a)) (after ops V (Proc.devRef .tc b)) := by
  rw [after_at hw hnd k hop hyk, ternary_result, after_keep hw k hck, after_keep hw k hak, after_keep hw k hbk]

/-- A reshape's result holds the operand's final contents, re-indexed row-major at the result's shape. -/
theorem read_reshape {x y : Ref sig .tc} {he : x.ty.elt = y.ty.elt} {hn : x.ty.shape.ShapeCasts y.ty.shape} {hx hy}
    (hop : ops[k]? = some (reshape (τ := τ) (Val := Val) x y he hn hx hy)) (hyk : wr[k]? = some y) (hxk : x ∉ wr.drop k)
    (V : Valuation τ sig Val) :
    after ops V (Proc.devRef .tc y) = fun i => he ▸ shapeCast y.ty.shape (after ops V (Proc.devRef .tc x)) hn i := by
  rw [after_at hw hnd k hop hyk, reshape_result, after_keep hw k hxk]

end Reads

end Cert.LibAfter
-- ==== Proof.HostArrays.lean ====
/-
  The two arrays the host prepares for the launch.

  Before the launch the host program gathers the source rows of the feature matrix, scatters them with
  accumulation into their destination nodes (the message sums, [100000, 128]), scatters ones the same way (the
  message counts, [100000]) and reshapes the counts to a column [100000, 1].

  The message sums are scattered through the destination ids after the index normalisation
  (d ↦ if d < 0 then d + 100000 else d); the reference scatters through the ids as given. On ids that are
  never negative the normalisation is the identity, so the two scatters receive the same three operands and the
  array the launch finds is the reference's scattered sum, as a whole term — the gather and the scatter are
  never opened. The counts go through the ids as given in both programs; the column the launch finds, read at
  (r, u), is the count vector at r, whatever the vector holds.

  The two programs name their gather and scatter dimension records separately; the records list the same
  dimension numbers, so they are equal.
-/
import proofs.«133157_j78675210928250_2_alg».proof.Proof.Gen.KernelIdeal.Frame
import proofs.«133157_j78675210928250_2_alg».proof.Proof.Gen.ReferenceIdeal.Read
import proofs.«133157_j78675210928250_2_alg».proof.Proof.SegmentIds
import proofs.«133157_j78675210928250_2_alg».proof.Proof.LibKeepdims
import proofs.«133157_j78675210928250_2_alg».proof.Proof.LibAfter
import Idealize.ShloMosaic.Lib.StableHlo.Run

noncomputable section

namespace Cert.MeanMix.HostArrays

open Cert.KernelIdeal Cert.KernelIdeal.Gen Idealize.ShloMosaic Idealize.ShloMosaic.TcCoe Idealize.SL.Sem
open Idealize.ShloMosaic.StableHlo

/-- The row scatter's dimension numbers are the same record in both programs. -/
theorem scatterRows_eq :
    Cert.KernelIdeal.scatter_S100000x128_S1600000x1_S1600000x128_1_0_0_1
      = Cert.ReferenceIdeal.scatter_S100000x128_S1600000x1_S1600000x128_1_0_0_1 := rfl

/-- The row gather's dimension numbers are the same record in both programs. -/
theorem gatherRows_eq :
    Cert.KernelIdeal.gather_S100000x128_S1600000x1_S1600000x128_1_0_n_n_0_1_1128
      = Cert.ReferenceIdeal.gather_S100000x128_S1600000x1_S1600000x128_1_0_n_n_0_1_1128 := rfl

/-- The count scatter's dimension numbers are the same record in both programs. -/
theorem scatterCount_eq :
    Cert.KernelIdeal.scatter_S100000_S1600000x1_S1600000_n_0_0_1
      = Cert.ReferenceIdeal.scatter_S100000_S1600000x1_S1600000_n_0_0_1 := rfl

variable (m : (ℓ : Loc nD τ sig) → Buf (Elt Ideal) ℓ)

set_option maxHeartbeats 1000000 in
/-- The message sums as the launch finds them, on ids that are never negative: the reference's scattered sum. -/
theorem sums_eq (c : Dev nD)
    (hd : ∀ e, IntOp.cmpi .sge (m ((c : Thread nD τ).loc main_arg2) e) 0#32 = 1#1) :
    (V m c main_call0_v14 : S100000x128.Idx → EReal)
      = Cert.ReferenceIdeal.Read.val_main_v9 (F := Ideal) (m ((c : Thread nD τ).loc main_arg0))
          (m ((c : Thread nD τ).loc main_arg1)) (m ((c : Thread nD τ).loc main_arg2)) := by
  dsimp only [Gen.V, Gen.hostOps0]
  after_results_simp
  simp only [TRef.toBuf, TRef.ofBuf, cast_eq]
  have hw : select (cmpi .slt (m (c, Proc.devRef .tc main_arg2) : IVec S1600000 32) (broadcastInDim S1600000 ![] bcast_S_S1600000 (constantI S_ 32 0#32)))
      (addi (m (c, Proc.devRef .tc main_arg2) : IVec S1600000 32) (broadcastInDim S1600000 ![] bcast_S_S1600000 (constantI S_ 32 100000#32)))
      (m (c, Proc.devRef .tc main_arg2) : IVec S1600000 32) = m (c, Proc.devRef .tc main_arg2) :=
    Cert.SegmentIds.normalise_eq_self _ hd _
  rw [hw, scatterRows_eq, gatherRows_eq]
  unfold Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.ReferenceIdeal.Read.val_main_cst
  rfl

set_option maxHeartbeats 1000000 in
/-- The message counts, before they are laid out as a column: the reference's count vector. -/
theorem countVector_eq (c : Dev nD) :
    (V m c main_call0_v18 : S100000.Idx → EReal)
      = Cert.ReferenceIdeal.Read.val_main_v13 (F := Ideal) (m ((c : Thread nD τ).loc main_arg2)) := by
  dsimp only [Gen.V, Gen.hostOps0]
  after_results_simp
  simp only [TRef.toBuf, TRef.ofBuf, cast_eq]
  rw [scatterCount_eq]
  unfold Cert.ReferenceIdeal.Read.val_main_v13 Cert.ReferenceIdeal.Read.val_main_v12 Cert.ReferenceIdeal.Read.val_main_v11
    Cert.ReferenceIdeal.Read.val_main_v10 Cert.ReferenceIdeal.Read.val_main_cst_1 Cert.ReferenceIdeal.Read.val_main_cst_2
  rfl

/-- The count column the launch finds, read at (r, u), is the count vector at r. The reshape is the last host
    operation before the launch: whatever the operations before it leave, it re-indexes the count vector
    row-major under the shape [100000, 1] and leaves the vector itself in place; position (r, u) of a column is
    position r of the vector. -/
theorem countColumn_apply (c : Dev nD) (j : S100000x1.Idx) :
    (V m c main_call0_v19 : S100000x1.Idx → EReal) j
      = (V m c main_call0_v18 : S100000.Idx → EReal) (ValueIdx.ix1 (j 0)) := by
  have hsplit : (hostOps0 : List (HloOp τ sig (Elt Ideal)))
      = hostOps0.take 26 ++ [TRef.reshape (.of main_call0_v18 : TRef sig ⟨S100000, .f32⟩)
          (.of main_call0_v19 : TRef sig ⟨S100000x1, .f32⟩) rfl shapeCasts_S100000_S100000x1] := rfl
  show after hostOps0 (fun b => m (c, b)) (Proc.devRef .tc main_call0_v19) j
    = after hostOps0 (fun b => m (c, b)) (Proc.devRef .tc main_call0_v18) (ValueIdx.ix1 (j 0))
  rw [hsplit, Cert.LibAfter.after_append]
  generalize after (List.take 26 hostOps0) (fun b => m (c, b)) = W
  simp (disch := decide) only [after_cons, after_nil, reshape_result', reshape_result_ne']
  exact Cert.Lib.Keepdims.shapeCast_column_apply (n := 100000) _ _ j

end Cert.MeanMix.HostArrays

end
-- ==== Proof.ReferenceEntry.lean ====
/-
  The reference, read at one entry.

  The reference computes, for node `r` and feature lane `c`,

      out[r, c] = ½ · x[r, c] + ½ · ( S[r, c] / max(K[r], 1) ),

  where `S` is the accumulating scatter of the gathered source rows into their destination nodes and `K`
  the accumulating scatter of ones (the number of messages per node). It lays `max(K, 1)` out as a column
  and then across the lanes by two broadcasts; read at `(r, c)` both broadcasts return the entry of node `r`.
  So the reference's result at an entry is the layer's pointwise rule of `x`, `S` at that entry and `K`
  at the entry's node. The two scatters are kept as whole terms: nothing here looks inside them.
-/
import proofs.«133157_j78675210928250_2_alg».proof.Proof.Gen.ReferenceIdeal.Read
import proofs.«133157_j78675210928250_2_alg».proof.Proof.MixSpec
import Idealize.ShloMosaic.PureOps.Ideal

noncomputable section

namespace Cert.MeanMix.Reference

open Idealize.ShloMosaic Cert.ReferenceIdeal Cert.ReferenceIdeal.Read

/-- The node an entry of the [100000, 128] result belongs to. -/
abbrev nodeOf (i : S100000x128.Idx) : S100000.Idx := idx_main_v16 (idx_main_v17 i)

/-- THE REFERENCE AT AN ENTRY: the pointwise rule of the feature, the scattered sum at the entry and the
    message count of the entry's node. -/
theorem result_apply (x : FVec Ideal S100000x128 .f32) (src dst : IVec S1600000 32) (i : S100000x128.Idx) :
    val_main_v23 (F := Ideal) x src dst i
      = mixAt (x i) (val_main_v9 (F := Ideal) x src dst i) (val_main_v13 (F := Ideal) dst (nodeOf i)) := by
  rw [val_main_v23_apply, val_main_v20_apply, val_main_v22_apply, val_main_v18_apply, val_main_v19_apply,
    val_main_v21_apply, val_main_v17_apply, val_main_v16_apply, val_main_v15_apply, val_main_v14_apply,
    val_main_cst_4_apply, val_main_cst_5_apply, val_main_cst_3_apply]
  rfl

end Cert.MeanMix.Reference

end
-- ==== Proof.Bridge.lean ====
/-
  The kernel's output array is the reference's result.

  After the run the kernel's output array is, entry by entry, the layer's pointwise rule of three arrays as the
  launch finds them: the feature matrix, the scattered message sums, and the message counts as a column, read at
  the entry's row. The feature matrix is the argument itself; on destination ids that are never negative the
  message sums are the reference's scattered sum; and the count column at a row is the reference's count of that
  node. The reference's result at the same entry is the same rule of the same three numbers. So the two arrays
  are equal, entry by entry.
-/
import proofs.«133157_j78675210928250_2_alg».proof.Proof.KernelArray
import proofs.«133157_j78675210928250_2_alg».proof.Proof.HostArrays
import proofs.«133157_j78675210928250_2_alg».proof.Proof.ReferenceEntry

noncomputable section

namespace Cert.MeanMix.Bridge

open Cert.KernelIdeal Cert.KernelIdeal.Gen Idealize.ShloMosaic Idealize.ShloMosaic.TcCoe Idealize.SL.Sem
open Cert.MeanMix

variable (m : (ℓ : Loc nD τ sig) → Buf (Elt Ideal) ℓ)

/-- The row of the count column an entry reads names the node the reference's two broadcasts read. -/
theorem node_eq (i : S100000x128.Idx) : ValueIdx.ix1 ((Kernel.colOf i) 0) = Reference.nodeOf i := by
  funext a
  match a with
  | ⟨0, _⟩ => rfl

/-- THE OUTPUT ARRAY after the kernel's run, on destination ids that are never negative, is the reference's
    result of the same three arguments. -/
theorem output_eq (c : Dev nD)
    (hd : ∀ e, IntOp.cmpi .sge (m ((c : Thread nD τ).loc main_arg2) e) 0#32 = 1#1) :
    (dats m 0 c).arrAt 3 cfg0.N
      = Cert.ReferenceIdeal.Read.val_main_v23 (F := Ideal) (m ((c : Thread nD τ).loc main_arg0))
          (m ((c : Thread nD τ).loc main_arg1)) (m ((c : Thread nD τ).loc main_arg2)) := by
  rw [Kernel.final m c]
  funext i
  rw [Reference.result_apply]
  show mixAt (F := Ideal) (V m c main_arg0 i) (V m c main_call0_v14 i) (V m c main_call0_v19 (Kernel.colOf i)) = _
  rw [V_main_arg0 m c, HostArrays.sums_eq m c hd, HostArrays.countColumn_apply m c, HostArrays.countVector_eq m c]
  exact congrArg (fun k => mixAt (F := Ideal) _ _ (Cert.ReferenceIdeal.Read.val_main_v13 (F := Ideal) _ k)) (node_eq i)

end Cert.MeanMix.Bridge

end
-- ==== Proof.lean ====
/-
  An edge-graph message-passing layer: a Pallas kernel against its jnp reference, over the extended reals.

  For N = 100000 nodes with 128 features and E = 1600000 directed edges (src → dst) the layer computes

      out[r, c] = ½ · x[r, c] + ½ · ( S[r, c] / max(K[r], 1) ),

  S[r, ·] the sum of the rows x[src e, ·] over the edges e with dst e = r, and K[r] the number of such edges.
  Both programs form S and K on the host by a gather and two accumulating scatters; the kernel program then runs
  the pointwise tail as one launch over twenty row blocks of 5000, the reference as plain array operations.

  The two differ in one place. The kernel program scatters the message rows through the destination ids after
  the index normalisation d ↦ (if d < 0 then d + N else d), the reference through the ids as given (an id
  outside [0, N) contributes nothing). For an id in [-N, -1] the first adds a row to node d + N and the second
  drops it, so the claim is stated on destination ids that are never negative, where the normalisation is the
  identity; ids at or above N are dropped by both. Source ids are normalised by both programs alike and need
  nothing.

  With equal index arrays the two scatters are one term, never opened. What remains is layout: the kernel lays
  the counts out as a column by a reshape and spreads it over the lanes inside each block, the reference by two
  broadcasts; and the kernel's twenty blocks tile the array. No algebraic law is used, and the finiteness of the
  features is not needed: the equality holds entry by entry on the extended reals.

  Each kernel program's frame is its generated frame run; the reference's frame is its generated run with the
  result dropped; no operation was rewritten for the reading over the extended reals, so there is nothing to
  preserve.
-/
import proofs.«133157_j78675210928250_2_alg».proof.Defs
import proofs.«133157_j78675210928250_2_alg».proof.Proof.Gen.Kernel
import proofs.«133157_j78675210928250_2_alg».proof.Proof.Gen.Kernel.Skeleton
import proofs.«133157_j78675210928250_2_alg».proof.Proof.Gen.Kernel.Launch
import proofs.«133157_j78675210928250_2_alg».proof.Proof.Gen.Kernel.Points
import proofs.«133157_j78675210928250_2_alg».proof.Proof.Gen.Kernel.Frame
import proofs.«133157_j78675210928250_2_alg».proof.Proof.Gen.KernelIdeal
import proofs.«133157_j78675210928250_2_alg».proof.Proof.Gen.KernelIdeal.Skeleton
import proofs.«133157_j78675210928250_2_alg».proof.Proof.Gen.KernelIdeal.Launch
import proofs.«133157_j78675210928250_2_alg».proof.Proof.Gen.KernelIdeal.Points
import proofs.«133157_j78675210928250_2_alg».proof.Proof.Gen.KernelIdeal.Frame
import proofs.«133157_j78675210928250_2_alg».proof.Proof.Gen.ReferenceIdeal
import proofs.«133157_j78675210928250_2_alg».proof.Proof.Gen.Pre_finite_inputs
import proofs.«133157_j78675210928250_2_alg».proof.Proof.Gen.KernelIdeal.Value
import proofs.«133157_j78675210928250_2_alg».proof.Proof.Gen.ReferenceIdeal.Run
import proofs.«133157_j78675210928250_2_alg».proof.Proof.Gen.ReferenceIdeal.Read
import proofs.«133157_j78675210928250_2_alg».proof.Proof.SegmentIds
import proofs.«133157_j78675210928250_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the three arguments, with destination ids never negative, both programs end with
    the reference's result of those arguments: the kernel by its block runs and the entry-by-entry equality of
    its output array with that result, the reference by its run. -/
theorem algebraic : Cert.algebraic_KernelIdeal_ReferenceIdeal := by
  intro m ρ m' ρ' hpre hagree
  have hd : ∀ (c : Dev Cert.KernelIdeal.nD) e,
      IntOp.cmpi .sge (m ((c : Thread Cert.KernelIdeal.nD Cert.KernelIdeal.τ).loc Cert.KernelIdeal.main_arg2) e) 0#32 = 1#1 :=
    fun c e => Cert.SegmentIds.ids_nonneg _ _ _ (hpre c) e
  refine ⟨fun c => Cert.ReferenceIdeal.Read.val_main_v23 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · exact (θ_run Cert.KernelIdeal.defs _ _).mono
      (fun r h c => ⟨(h c).1.trans (Cert.MeanMix.Bridge.output_eq m c (hd c)), (h c).2⟩)
      (Cert.KernelIdeal.Value.run_blocks m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v23_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
